-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S_ : Shape := ⟨0, ![]⟩
abbrev S1x640000 : Shape := ⟨2, ![1, 640000]⟩
abbrev S640000 : Shape := ⟨1, ![640000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  slices_S2x640000_S1x640000_1_0 : S2x640000.Slices ![1, 0] S1x640000
  shapeCasts_S1x640000_S640000 : S1x640000.ShapeCasts S640000
  bcast_S_S640000 : S_.BroadcastsInDim S640000 (![] : Fin 0 → Fin S640000.rank)
  reducesTo_S640000_S_d0 : S640000.ReducesTo [0] S_

variable [Facts]

def fn_part1 {F : FTy → Type} [FloatOps F] (main_v13 : IVec S_ 1) (main_v15 : IVec S640000 32) (main_v16 : IVec S640000 32) : IVec S_ 1 :=
  let main_v17 : IVec S640000 1 := cmpi .sge main_v15 main_v16
  let main_c_5 : IVec S_ 1 := constantI S_ 1 1#1
  let main_v18 : IVec S_ 1 := (fun x v => Host.reduce IntOp.andi x v reducesTo_S640000_S_d0 h_S_) main_v17 main_c_5
  let main_v19 : IVec S_ 1 := andi main_v13 main_v18
  main_v19

def fn {F : FTy → Type} [FloatOps F] (main_arg0 : FVec F S100000x128 .f32) (main_arg1 : IVec S2x640000 32) (main_arg2 : FVec F S128x128 .f32) (main_arg3 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : IVec S1x640000 32 := (extractStridedSlice S1x640000 ![1, 0] · slices_S2x640000_S1x640000_1_0) main_arg1
  let main_v15 : IVec S640000 32 := shapeCast S640000 main_v14 shapeCasts_S1x640000_S640000
  let main_c_4 : IVec S_ 32 := constantI S_ 32 0#32
  let main_v16 : IVec S640000 32 := broadcastInDim S640000 ![] bcast_S_S640000 main_c_4
  fn_part1 (F := F) main_v13 main_v15 main_v16
-- ==== Kernel.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S1x128 : Shape := ⟨2, ![1, 128]⟩
abbrev S10000x128 : Shape := ⟨2, ![10000, 128]⟩

abbrev nBuf : Space → Nat
  | .hbm => 29
  | .vmem => 6
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S1x640000, .i32⟩
  | .hbm, ⟨5, _⟩ => ⟨S640000, .i32⟩
  | .hbm, ⟨6, _⟩ => ⟨S1x640000, .i32⟩
  | .hbm, ⟨7, _⟩ => ⟨S640000, .i32⟩
  | .hbm, ⟨8, _⟩ => ⟨S_, .i32⟩
  | .hbm, ⟨9, _⟩ => ⟨S640000, .i32⟩
  | .hbm, ⟨10, _⟩ => ⟨S640000, .i1⟩
  | .hbm, ⟨11, _⟩ => ⟨S_, .i32⟩
  | .hbm, ⟨12, _⟩ => ⟨S640000, .i32⟩
  | .hbm, ⟨13, _⟩ => ⟨S640000, .i32⟩
  | .hbm, ⟨14, _⟩ => ⟨S640000, .i32⟩
  | .hbm, ⟨15, _⟩ => ⟨S640000x1, .i32⟩
  | .hbm, ⟨16, _⟩ => ⟨S640000x128, .f32⟩
  | .hbm, ⟨17, _⟩ => ⟨S_, .i32⟩
  | .hbm, ⟨18, _⟩ => ⟨S640000, .i32⟩
  | .hbm, ⟨19, _⟩ => ⟨S640000, .i1⟩
  | .hbm, ⟨20, _⟩ => ⟨S_, .i32⟩
  | .hbm, ⟨21, _⟩ => ⟨S640000, .i32⟩
  | .hbm, ⟨22, _⟩ => ⟨S640000, .i32⟩
  | .hbm, ⟨23, _⟩ => ⟨S640000, .i32⟩
  | .hbm, ⟨24, _⟩ => ⟨S640000x1, .i32⟩
  | .hbm, ⟨25, _⟩ => ⟨S100000x128, .f32⟩
  | .hbm, ⟨26, _⟩ => ⟨S128x128, .f32⟩
  | .hbm, ⟨27, _⟩ => ⟨S1x128, .f32⟩
  | .hbm, ⟨28, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S1x128, .f32⟩
  | .local _ .vmem, ⟨4, _⟩ => ⟨S10000x128, .f32⟩
  | .local _ .vmem, ⟨5, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_c_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  transposes_S128x128_S128x128_1_0 : S128x128.Transposes [1, 0] S128x128
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S100000x128.size a
  hwx0_3 : ∀ i : grid0.Coords, EltTy.bits .f32 = 32 ∨ (Rect.block (s := S100000x128) S10000x128.size (cc0_transform_3 i) (hinb0_3 i)).WholeWords (EltTy.packing .f32)

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_v17) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v19) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S1x128 : Shape := ⟨2, ![1, 128]⟩

abbrev nBuf : Space → Nat
  | .hbm => 27
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S1x640000, .i32⟩
  | .hbm, ⟨5, _⟩ => ⟨S640000, .i32⟩
  | .hbm, ⟨6, _⟩ => ⟨S1x640000, .i32⟩
  | .hbm, ⟨7, _⟩ => ⟨S640000, .i32⟩
  | .hbm, ⟨8, _⟩ => ⟨S_, .i32⟩
  | .hbm, ⟨9, _⟩ => ⟨S640000, .i32⟩
  | .hbm, ⟨10, _⟩ => ⟨S640000, .i1⟩
  | .hbm, ⟨11, _⟩ => ⟨S_, .i32⟩
  | .hbm, ⟨12, _⟩ => ⟨S640000, .i32⟩
  | .hbm, ⟨13, _⟩ => ⟨S640000, .i32⟩
  | .hbm, ⟨14, _⟩ => ⟨S640000, .i32⟩
  | .hbm, ⟨15, _⟩ => ⟨S640000x1, .i32⟩
  | .hbm, ⟨16, _⟩ => ⟨S640000x128, .f32⟩
  | .hbm, ⟨17, _⟩ => ⟨S_, .f32⟩
  | .hbm, ⟨18, _⟩ => ⟨S100000x128, .f32⟩
  | .hbm, ⟨19, _⟩ => ⟨S640000x1, .i32⟩
  | .hbm, ⟨20, _⟩ => ⟨S100000x128, .f32⟩
  | .hbm, ⟨21, _⟩ => ⟨S100000x128, .f32⟩
  | .hbm, ⟨22, _⟩ => ⟨S128x128, .f32⟩
  | .hbm, ⟨23, _⟩ => ⟨S100000x128, .f32⟩
  | .hbm, ⟨24, _⟩ => ⟨S1x128, .f32⟩
  | .hbm, ⟨25, _⟩ => ⟨S100000x128, .f32⟩
  | .hbm, ⟨26, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  dot_S100000x128_S128x128_S100000x128_1_0_0_1_n_n_wf : DotDims.WF S100000x128 S128x128 S100000x128 [1] [0] [0] [1] [] []

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Affine.lean ====
/-
  The dense layer as one function of three arrays: for a [100000,128] array `h`, a [128,128] matrix `wt` and a
  [1,128] row `b2`, entry (r, c) of the result is the sum over k of h (r, k) · wt (k, c), plus b2 (0, c) — every row of
  `h` times the matrix, the bias row added to each.
-/
import Idealize.ShloMosaic.PureOps.Ideal
import Idealize.ShloMosaic.Lib.ValueIdx

noncomputable section

open scoped BigOperators

namespace Cert.Hand

open Idealize.ShloMosaic Idealize.ShloMosaic.ValueIdx

/-- Entry (r, c): the r-th row of `h` against the c-th column of `wt`, plus the c-th entry of the bias row. -/
def rowsAffine (h : (⟨2, ![100000, 128]⟩ : Shape).Idx → EReal) (wt : (⟨2, ![128, 128]⟩ : Shape).Idx → EReal)
    (b2 : (⟨2, ![1, 128]⟩ : Shape).Idx → EReal) : (⟨2, ![100000, 128]⟩ : Shape).Idx → EReal :=
  fun i => (∑ k : Fin 128, h (ix2 (i 0) k) * wt (ix2 k (i 1))) + b2 (ix2 0 (i 1))

theorem rowsAffine_apply (h : (⟨2, ![100000, 128]⟩ : Shape).Idx → EReal) (wt : (⟨2, ![128, 128]⟩ : Shape).Idx → EReal)
    (b2 : (⟨2, ![1, 128]⟩ : Shape).Idx → EReal) (r : Fin 100000) (c : Fin 128) :
    rowsAffine h wt b2 (ix2 r c) = (∑ k : Fin 128, h (ix2 r k) * wt (ix2 k c)) + b2 (ix2 0 c) := rfl

end Cert.Hand

end
-- ==== Proof.LibMat.lean ====
/-
  A matrix product read at an index. For the plain dimension numbers (rows × contraction times contraction × columns)
  a `tpu.matmul` into the zero accumulator, at the ideal values, is at (a, b) the sum over the contracted coordinate `c`
  of the left operand at (a, c) times the right operand at (c, b): the contraction's index set has one axis, and the sum
  over it is re-indexed by that axis's coordinate.
-/
import Idealize.ShloMosaic.PureOps.Ideal.Laws
import Idealize.ShloMosaic.Lib.ValueIdx
import Idealize.ShloMosaic.Lib.ValueLayout

noncomputable section

open scoped BigOperators

namespace Cert.LibMat

open Idealize.ShloMosaic Idealize.ShloMosaic.ValueIdx

/-- The plain dimension numbers over any witness of their well-formedness. -/
abbrev plainDims {m k n : ℕ} (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

/-- A plain matrix product into the zero accumulator, at (a, b): the sum over the contracted coordinate. -/
theorem matmul_plain_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (plainDims w) prec A B (constant ⟨2, ![m, n]⟩ .f32 0x00000000#32) (ix2 a b) = ∑ c : Fin k, A (ix2 a c) * B (ix2 c b) := by
  show FloatOps.matmul _ prec A B _ (ix2 a b) = _
  rw [Ideal.matmul_constant_zero_apply, ← Equiv.sum_comp (contrEquiv1 (plainDims w) k rfl rfl).symm]
  refine Finset.sum_congr rfl fun c _ => ?_
  have c2 := contrEquiv1_symm_val (plainDims w) k rfl rfl c
  have l2 : (plainDims w).lhsIdx (ix2 a b) ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (plainDims w).rhsIdx (ix2 a b) ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.LibMat

end
-- ==== Proof.Payload.lean ====
/-
  What the kernel body stores at one grid point, read at an entry: for a [10000,128] block `x0` of rows, the whole
  [128,128] matrix `x1` and the [1,128] bias row `x2`, entry (p, q) is the sum over k of x0 (p, k) · x1 (k, q), plus
  x2 (0, q). The rounding of both factors to bf16 is the identity on the extended reals, the accumulator is zero, and the
  bias row is broadcast down the rows.
-/
import proofs.«128946_j45792941310039_2_alg».proof.Proof.Gen.KernelIdeal.Skeleton
import proofs.«128946_j45792941310039_2_alg».proof.Proof.LibMat
import Idealize.ShloMosaic.Lib.Pipeline.Value

noncomputable section

open scoped BigOperators

namespace Cert.Hand.Payload

open Idealize.ShloMosaic Idealize.ShloMosaic.ValueIdx Cert.KernelIdeal Cert.KernelIdeal.Gen

/-- The body's stored value at entry (p, q) of the block. -/
theorem payload_apply (x0 : Vec Ideal S10000x128 .f32) (x1 : Vec Ideal S128x128 .f32) (x2 : Vec Ideal S1x128 .f32)
    (p : Fin 10000) (q : Fin 128) :
    k0_pay1 (F := Ideal) x0 x1 x2 (ix2 p q) = (∑ k : Fin 128, x0 (ix2 p k) * x1 (ix2 k q)) + x2 (ix2 0 q) := by
  unfold k0_pay1
  simp only [shapeCast_self]
  have hm := Cert.LibMat.matmul_plain_apply Facts₀.dot_S10000x128_S128x128_S10000x128_1_0_0_1_n_n_wf none
    (truncf (F := Ideal) .bf16 x0 Facts₀.bitsLt_bf16_f32) (truncf (F := Ideal) .bf16 x1 Facts₀.bitsLt_bf16_f32) p q
  have hb : broadcastTo S10000x128 x2 Facts₀.broadcasts_S1x128_S10000x128 (ix2 p q) = x2 (ix2 0 q) :=
    broadcastTo_apply x2 Facts₀.broadcasts_S1x128_S10000x128 (ix2 p q) (ix2 0 q) (fun a => by
      match a with
      | ⟨0, _⟩ => rfl
      | ⟨1, _⟩ => rfl)
  exact congrArg₂ (· + ·) hm hb

end Cert.Hand.Payload

end
-- ==== Proof.Blocks.lean ====
/-
  From blocks to the array. The grid has ten points; point t stages rows 10000·t … 10000·t + 9999 of the aggregated
  features (all 128 columns), the whole transposed weight matrix and the whole bias row, and writes back the same rows
  of the result. Each written block is the matching block of ONE function of the three staged arrays — every row of the
  features times the matrix, plus the bias row — and the ten row blocks cover the result array, so after the run the
  result array is that function.
-/
import proofs.«128946_j45792941310039_2_alg».proof.Proof.Gen.KernelIdeal.Value
import proofs.«128946_j45792941310039_2_alg».proof.Proof.Affine
import proofs.«128946_j45792941310039_2_alg».proof.Proof.Payload
import Idealize.ShloMosaic.Lib.Pipeline.Value

noncomputable section

open scoped BigOperators

namespace Cert.Hand.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- The result array as one function of the arrays the region finds: the aggregated features `main_v17`, the
    transposed weights `main_v18` and the bias row `main_v19`. -/
def wholeResult (c : Dev nD) : S100000x128.Idx → EReal :=
  Cert.Hand.rowsAffine (V m c main_v17) (V m c main_v18) (V m c main_v19)

/-- The block index maps over the ten grid points: the features' and the result's blocks are row block t, column
    block 0; the weights' and the bias's block is always block (0, 0). -/
theorem block_indices : ∀ t : Fin cfg0.N, win0_0.index t (0 : Fin 2) = win0_3.index t (0 : Fin 2)
    ∧ win0_0.index t (1 : Fin 2) = 0
    ∧ win0_3.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val :=
  (by decide +kernel : ∀ t : Fin grid0.N, _)

/-- One entry of the dense layer from the entries it reads: when the k-th feature entry read is entry (r, k) of `A`, the
    k-th matrix entry read is entry (k, c) of `B` and the bias entry read is entry (0, c) of `C`, the sum of products
    plus the bias entry is entry (r, c) of the dense layer of `A`, `B`, `C`. -/
theorem entry_eq (A : S100000x128.Idx → EReal) (B : S128x128.Idx → EReal) (C : S1x128.Idx → EReal)
    (e : S100000x128.Idx) (i0 : Fin 128 → S100000x128.Idx) (i1 : Fin 128 → S128x128.Idx) (i2 : S1x128.Idx)
    (h0 : ∀ k, i0 k = ix2 (e 0) k) (h1 : ∀ k, i1 k = ix2 k (e 1)) (h2 : i2 = ix2 0 (e 1)) :
    (∑ k : Fin 128, A (i0 k) * B (i1 k)) + C i2 = Cert.Hand.rowsAffine A B C e := by
  subst h2
  unfold Cert.Hand.rowsAffine
  refine congrArg₂ (· + ·) (Finset.sum_congr rfl fun k _ => ?_) rfl
  rw [h0 k, h1 k]
  rfl

/-- What point t writes back is block t of `wholeResult`. -/
theorem flushed_eq (c : Dev nD) (t : Fin cfg0.N) :
    (dats m 0 c).flushed 3 t = ((cfg0.win 3).blk t).view.read (Elt Ideal) (wholeResult m c) := by
  rw [Cert.KernelIdeal.Value.flushed3]
  unfold out0_3
  rw [View.canon_unit_zero origin]
  simp only [View.ld_unit_zero (S := S10000x128) origin, View.ld_unit_zero (S := S128x128) origin,
    View.ld_unit_zero (S := S1x128) origin]
  obtain ⟨e0, e1, e2, e3, e4, e5, e6, e7⟩ := block_indices t
  funext j
  obtain ⟨p, q, rfl⟩ : ∃ (p : Fin 10000) (q : Fin 128), j = ix2 p q := ⟨j 0, j 1, eq_ix2 j⟩
  show k0_pay1 (iblk m c 0 t) (iblk m c 1 t) (iblk m c 2 t) (ix2 p q)
    = wholeResult m c (((cfg0.win 3).blk t).view.emb (ix2 p q))
  refine (Cert.Hand.Payload.payload_apply (iblk m c 0 t) (iblk m c 1 t) (iblk m c 2 t) p q).trans ?_
  have h0 : ∀ k : Fin 128, ((cfg0.win 0).blk t).view.emb (ix2 p k)
      = ix2 ((((cfg0.win 3).blk t).view.emb (ix2 p q)) 0) k := by
    intro k; funext a; apply Fin.ext
    match a with
    | ⟨0, _⟩ => show win0_0.index t (0 : Fin 2) * 10000 + 1 * p.val = win0_3.index t (0 : Fin 2) * 10000 + 1 * p.val; omega
    | ⟨1, _⟩ => show win0_0.index t (1 : Fin 2) * 128 + 1 * k.val = k.val; omega
  have h1 : ∀ k : Fin 128, ((cfg0.win 1).blk t).view.emb (ix2 k q)
      = ix2 k ((((cfg0.win 3).blk t).view.emb (ix2 p q)) 1) := by
    intro k; funext a; apply Fin.ext
    match a with
    | ⟨0, _⟩ => show win0_1.index t (0 : Fin 2) * 128 + 1 * k.val = k.val; omega
    | ⟨1, _⟩ => show win0_1.index t (1 : Fin 2) * 128 + 1 * q.val = win0_3.index t (1 : Fin 2) * 128 + 1 * q.val; omega
  have h2 : ((cfg0.win 2).blk t).view.emb (ix2 0 q) = ix2 0 ((((cfg0.win 3).blk t).view.emb (ix2 p q)) 1) := by
    funext a; apply Fin.ext
    match a with
    | ⟨0, _⟩ => show win0_2.index t (0 : Fin 2) * 1 + 1 * ((0 : Fin 1) : Nat) = ((0 : Fin 1) : Nat); rw [e5]; rfl
    | ⟨1, _⟩ => show win0_2.index t (1 : Fin 2) * 128 + 1 * q.val = win0_3.index t (1 : Fin 2) * 128 + 1 * q.val; omega
  exact entry_eq (V m c main_v17) (V m c main_v18) (V m c main_v19) (((cfg0.win 3).blk t).view.emb (ix2 p q))
    (fun k => ((cfg0.win 0).blk t).view.emb (ix2 p k)) (fun k => ((cfg0.win 1).blk t).view.emb (ix2 k q))
    (((cfg0.win 2).blk t).view.emb (ix2 0 q)) h0 h1 h2

/-- An index of the result array is in point t's block iff each coordinate is in the block's range on its axis. -/
theorem mem_block (t : Fin cfg0.N) (i : S100000x128.Idx) :
    i ∈ ((cfg0.win 3).blk t).view.set ↔ ∀ a : Fin 2, win0_3.index t a * S10000x128.size a ≤ (i a).val
      ∧ (i a).val < win0_3.index t a * S10000x128.size a + S10000x128.size a := by
  show i ∈ ((View.whole main_v20).slice (win0_3.rect t)).set ↔ _
  rw [View.set_slice_whole, Rect.mem_set_unit]
  exact Iff.rfl

/-- Row r of the result lies in the block of point r / 10000: the ten row blocks cover the array. -/
theorem covered (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : grid0.N = 10 := N_0
  obtain ⟨t, ht⟩ : ∃ t : Fin cfg0.N, t.val = (i 0).val / 10000 :=
    ⟨⟨(i 0).val / 10000, by show (i 0).val / 10000 < grid0.N; rw [hN]; omega⟩, rfl⟩
  obtain ⟨e0, e1, e2, e3, e4, e5, e6, e7⟩ := block_indices t
  refine ⟨t, flush0_3 t, ?_⟩
  rw [mem_block]
  intro a
  match a with
  | ⟨0, _⟩ =>
    show win0_3.index t (0 : Fin 2) * 10000 ≤ (i 0).val ∧ (i 0).val < win0_3.index t (0 : Fin 2) * 10000 + 10000
    omega
  | ⟨1, _⟩ =>
    show win0_3.index t (1 : Fin 2) * 128 ≤ (i 1).val ∧ (i 1).val < win0_3.index t (1 : Fin 2) * 128 + 128
    omega

/-- The result array after the run. -/
theorem final (c : Dev nD) : (dats m 0 c).arrAt 3 cfg0.N = wholeResult m c :=
  (dats m 0 c).arrAt_eq_of_cover 3 (wholeResult m c) (fun t _ => flushed_eq m c t) covered

/-- The run, read: the result array at `wholeResult`, the arguments unchanged. -/
theorem run : θ_run defs (onTc (τ := τ) (main (F := Ideal))) ⟨m, fun _ => 0, ρ⟩ fun r => ∀ c : Dev nD,
      r.2.mem ((c : Thread nD τ).loc main_v20) = wholeResult m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.KernelIdeal.Value.run_blocks m ρ)

end Cert.Hand.Blocks

end
-- ==== Proof.HostValues.lean ====
/-
  What the three staged arrays hold when the region is entered. The host code before the kernel splits the edge list
  into its source row and its destination row, wraps a negative entry of either by adding the node count, gathers the
  feature row of every edge's source, adds each gathered row onto the feature row of the edge's destination (starting
  from the features themselves), transposes the weights, and reshapes the bias to a row.
-/
import proofs.«128946_j45792941310039_2_alg».proof.Proof.Gen.KernelIdeal.Frame
import Idealize.ShloMosaic.Lib.StableHlo.Run
import Idealize.ShloMosaic.PureOps.Ideal

noncomputable section

namespace Cert.Hand.HostValues

open Cert.KernelIdeal Cert.KernelIdeal.Gen Idealize.ShloMosaic Idealize.ShloMosaic.TcCoe Idealize.SL.Sem
open Idealize.ShloMosaic.StableHlo

/-- Row 0 of the edge list: every edge's source node. -/
def srcRow (x1 : IVec S2x640000 32) : IVec S640000 32 :=
  shapeCast S640000 (extractStridedSlice S1x640000 ![0, 0] x1 Facts₀.slices_S2x640000_S1x640000_0_0)
    Facts₀.shapeCasts_S1x640000_S640000

/-- Row 1 of the edge list: every edge's destination node. -/
def dstRow (x1 : IVec S2x640000 32) : IVec S640000 32 :=
  shapeCast S640000 (extractStridedSlice S1x640000 ![1, 0] x1 Facts₀.slices_S2x640000_S1x640000_1_0)
    Facts₀.shapeCasts_S1x640000_S640000

/-- A negative entry counts from the end: the node count is added to it. -/
def wrapNegative (v : IVec S640000 32) : IVec S640000 32 :=
  select (cmpi .slt v (broadcastInDim S640000 ![] Facts₀.bcast_S_S640000 (constantI S_ 32 0#32)))
    (addi v (broadcastInDim S640000 ![] Facts₀.bcast_S_S640000 (constantI S_ 32 100000#32))) v

/-- A list of node numbers as a column of one-entry index vectors. -/
def asColumn (v : IVec S640000 32) : IVec S640000x1 32 :=
  broadcastInDim S640000x1 ![0] Facts₀.bcast_S640000_S640000x1_0 v

/-- The feature row of every edge's source. -/
def gatheredRows (x0 : FVec Ideal S100000x128 .f32) (x1 : IVec S2x640000 32) : FVec Ideal S640000x128 .f32 :=
  Host.gather gather_S100000x128_S640000x1_S640000x128_1_0_n_n_0_1_1128 x0 (asColumn (wrapNegative (srcRow x1)))

variable (m : (ℓ : Loc nD τ sig) → Buf (Elt Ideal) ℓ)

set_option maxHeartbeats 4000000 in
/-- The aggregated features: the features with every gathered row added at its edge's (wrapped) destination. -/
theorem features_eq (c : Dev nD) : (V m c main_v17 : S100000x128.Idx → EReal) =
    Host.scatterAdd (F := Ideal) scatter_S100000x128_S640000x1_S640000x128_1_0_0_1 (m ((c : Thread nD τ).loc main_arg0))
      (asColumn (wrapNegative (dstRow (m ((c : Thread nD τ).loc main_arg1)))))
      (gatheredRows (m ((c : Thread nD τ).loc main_arg0)) (m ((c : Thread nD τ).loc main_arg1))) := by
  dsimp only [V, hostOps0]; after_results <;> rfl

/-- The transposed weights. -/
theorem weights_eq (c : Dev nD) : (V m c main_v18 : S128x128.Idx → EReal) =
    transpose S128x128 [1, 0] (m ((c : Thread nD τ).loc main_arg2)) Facts₀.transposes_S128x128_S128x128_1_0 := by
  dsimp only [V, hostOps0]; after_results <;> rfl

/-- The bias as a row. -/
theorem bias_eq (c : Dev nD) : (V m c main_v19 : S1x128.Idx → EReal) =
    shapeCast S1x128 (m ((c : Thread nD τ).loc main_arg3)) Facts₀.shapeCasts_S128_S1x128 := by
  dsimp only [V, hostOps0]; after_results <;> rfl

end Cert.Hand.HostValues

end
-- ==== Proof.Aggregate.lean ====
/-
  The aggregated features are the same array in both programs. The kernel's host code adds every edge's gathered source
  row onto the feature row of the edge's destination, starting from the features themselves and wrapping a negative
  destination by the node count; the reference adds the same rows onto a zero array, without wrapping, and adds the
  features afterwards. When no destination is negative the wrap changes nothing, and entry by entry both are the
  feature entry plus the sum of the gathered entries landing on it: x + Σ against x + (0 + Σ).
-/
import proofs.«128946_j45792941310039_2_alg».proof.Proof.HostValues
import proofs.«128946_j45792941310039_2_alg».proof.Proof.Gen.ReferenceIdeal.Read
import Idealize.ShloMosaic.Lib.Affine
import Idealize.ShloMosaic.PureOps.Ideal.Laws

noncomputable section

open scoped BigOperators

namespace Cert.Hand.Aggregate

open Idealize.ShloMosaic Cert.Hand.HostValues

/-- Wrapping changes no entry of a list of nonnegative node numbers. -/
theorem wrap_of_nonneg (v : IVec Cert.KernelIdeal.S640000 32) (hv : ∀ e, 0 ≤ (v e).toInt) : wrapNegative v = v := by
  funext e
  have hc : ¬ IntOp.cmpi .slt (v e) (0#32) = 1#1 := fun h => by
    have h1 := IntOp.cmpi_slt.1 h
    have z : (0#32 : BitVec 32).toInt = 0 := by decide
    have h2 := hv e
    omega
  show Scalar.select (IntOp.cmpi .slt (v e) (0#32)) (IntOp.addi (v e) (100000#32)) (v e) = v e
  exact if_neg hc

/-- The two scatters' dimension numbers are the same record. -/
theorem scatter_dims_eq : Cert.ReferenceIdeal.scatter_S100000x128_S640000x1_S640000x128_1_0_0_1
    = Cert.KernelIdeal.scatter_S100000x128_S640000x1_S640000x128_1_0_0_1 := rfl

/-- The reference scatters at the destinations as they are. -/
theorem ref_indices (x1 : IVec Cert.KernelIdeal.S2x640000 32) :
    Cert.ReferenceIdeal.Read.val_main_v12 (F := Ideal) x1 = asColumn (dstRow x1) := rfl

/-- Both programs gather the same rows. -/
theorem ref_gathered (x0 : FVec Ideal Cert.KernelIdeal.S100000x128 .f32) (x1 : IVec Cert.KernelIdeal.S2x640000 32) :
    Cert.ReferenceIdeal.Read.val_main_v10 (F := Ideal) x0 x1 = gatheredRows x0 x1 := rfl

/-- The kernel's aggregated features are the reference's, when no destination is negative. -/
theorem features_agree (x0 : FVec Ideal Cert.KernelIdeal.S100000x128 .f32) (x1 : IVec Cert.KernelIdeal.S2x640000 32)
    (hdst : ∀ e, 0 ≤ (dstRow x1 e).toInt) :
    Host.scatterAdd (F := Ideal) Cert.KernelIdeal.scatter_S100000x128_S640000x1_S640000x128_1_0_0_1 x0
        (asColumn (wrapNegative (dstRow x1))) (gatheredRows x0 x1)
      = Cert.ReferenceIdeal.Read.val_main_v14 (F := Ideal) x0 x1 := by
  rw [wrap_of_nonneg _ hdst]
  unfold Cert.ReferenceIdeal.Read.val_main_v14 Cert.ReferenceIdeal.Read.val_main_v13
  rw [ref_indices, ref_gathered, scatter_dims_eq]
  funext i
  show x0 i + _ = x0 i + (Ideal.ofBits .f32 0x00000000#32 + _)
  rw [Ideal.ofBits_zero_f32, zero_add]

end Cert.Hand.Aggregate

end
-- ==== Proof.PreDecode.lean ====
/-
  The precondition, read back. Beside the finiteness of the float inputs it says that every entry of row 1 of the
  edge list — every edge's destination node — is nonnegative as a signed 32-bit word. The last conjunct of the
  precondition is the reduction by `and` of the comparisons "destination ≥ 0" over all 640000 edges; when a reduction
  by `and` has the value 1, every element it reduces has the value 1.
-/
import proofs.«128946_j45792941310039_2_alg».proof.Pre_finite_inputs
import Idealize.ShloMosaic.Lib.ReduceAll
import Idealize.ShloMosaic.Lib.ValueIdx

noncomputable section

namespace Cert.Hand.PreDecode

open Idealize.ShloMosaic Cert.Pre_finite_inputs

variable [Cert.Pre_finite_inputs.Facts]

instance : Subsingleton S_.Idx := ⟨fun a b => funext fun d => d.elim0⟩

/-- Row 1 of the edge list: every edge's destination node. -/
def dstRow (x1 : IVec S2x640000 32) : IVec S640000 32 :=
  shapeCast S640000 (extractStridedSlice S1x640000 ![1, 0] x1 Facts.slices_S2x640000_S1x640000_1_0)
    Facts.shapeCasts_S1x640000_S640000

/-- Under the precondition every destination is nonnegative. -/
theorem dst_nonneg {F : FTy → Type} [FloatOps F] (x0 : FVec F S100000x128 .f32) (x1 : IVec S2x640000 32)
    (x2 : FVec F S128x128 .f32) (x3 : FVec F S128 .f32) (h : fn (F := F) x0 x1 x2 x3 = fun _ => 1#1)
    (e : S640000.Idx) : 0 ≤ (dstRow x1 e).toInt := by
  have h0 := congrFun h ValueIdx.ix0
  dsimp only [fn, fn_part1] at h0
  have h1 := (IntOp.andi_eq_one.1 h0).2
  have h2 := Host.reduce_andi_all _ _ _ _ _ h1 e
  exact IntOp.cmpi_sge.1 h2

end Cert.Hand.PreDecode

end
-- ==== Proof.RefAffine.lean ====
/-
  The reference's result is the dense layer of its own aggregated features, its transposed weights and its bias row:
  entry (r, c) of `h @ W.T + b` is the sum over k of h (r, k) · Wᵀ (k, c), plus the bias broadcast to row r.
-/
import proofs.«128946_j45792941310039_2_alg».proof.Proof.Gen.ReferenceIdeal.Read
import proofs.«128946_j45792941310039_2_alg».proof.Proof.Affine

noncomputable section

open scoped BigOperators

namespace Cert.Hand.RefAffine

open Idealize.ShloMosaic Idealize.ShloMosaic.ValueIdx Cert.ReferenceIdeal Cert.ReferenceIdeal.Read

/-- The reference's last stage, entry by entry. -/
theorem result_eq (x0 : FVec Ideal S100000x128 .f32) (x1 : IVec S2x640000 32) (x2 : FVec Ideal S128x128 .f32)
    (x3 : FVec Ideal S128 .f32) :
    val_main_v19 (F := Ideal) x0 x1 x2 x3
      = Cert.Hand.rowsAffine (val_main_v14 (F := Ideal) x0 x1) (val_main_v15 (F := Ideal) x2) (val_main_v17 (F := Ideal) x3) := by
  funext i
  obtain ⟨r, c, rfl⟩ : ∃ (r : Fin 100000) (c : Fin 128), i = ix2 r c := ⟨i 0, i 1, eq_ix2 i⟩
  have el : ∀ k : Fin 128, lidx_main_v16 (ix2 r c) k = ix2 r k := fun k => funext fun a => Fin.ext (by
    match a with
    | ⟨0, _⟩ => rfl
    | ⟨1, _⟩ => rfl)
  have er : ∀ k : Fin 128, ridx_main_v16 (ix2 r c) k = ix2 k c := fun k => funext fun a => Fin.ext (by
    match a with
    | ⟨0, _⟩ => rfl
    | ⟨1, _⟩ => rfl)
  have eb : idx_main_v18 (ix2 r c) = ix2 0 c := funext fun a => Fin.ext (by
    match a with
    | ⟨0, _⟩ => rfl
    | ⟨1, _⟩ => rfl)
  rw [Cert.Hand.rowsAffine_apply, val_main_v19_apply, val_main_v16_apply, val_main_v18_apply]
  simp only [el, er, eb, Ideal.addf_def]

end Cert.Hand.RefAffine

end
-- ==== Proof.Bridge.lean ====
/-
  The kernel's result array is the reference's result, under the precondition. Both are the dense layer — every row of
  the aggregated features times the transposed weights, plus the bias row — of arrays that agree: the aggregated features
  agree because no destination is negative, the transposed weights are one term, and the bias reshaped to a row is the
  bias broadcast to a row (entry (0, c) of either is entry c of the bias).
-/
import proofs.«128946_j45792941310039_2_alg».proof.Defs
import proofs.«128946_j45792941310039_2_alg».proof.Proof.Gen.Pre_finite_inputs
import proofs.«128946_j45792941310039_2_alg».proof.Proof.Blocks
import proofs.«128946_j45792941310039_2_alg».proof.Proof.HostValues
import proofs.«128946_j45792941310039_2_alg».proof.Proof.Aggregate
import proofs.«128946_j45792941310039_2_alg».proof.Proof.PreDecode
import proofs.«128946_j45792941310039_2_alg».proof.Proof.RefAffine

noncomputable section

namespace Cert.Hand.Bridge

open Idealize.ShloMosaic Idealize.ShloMosaic.TcCoe Idealize.SL.Sem
open Cert.KernelIdeal Cert.KernelIdeal.Gen

/-- The bias reshaped to a [1,128] row is the bias broadcast to a [1,128] row. -/
theorem bias_row_eq (x3 : FVec Ideal S128 .f32) :
    shapeCast S1x128 x3 Facts₀.shapeCasts_S128_S1x128 = Cert.ReferenceIdeal.Read.val_main_v17 (F := Ideal) x3 := by
  funext i
  rw [Cert.ReferenceIdeal.Read.val_main_v17_apply]
  exact shapeCast_apply x3 Facts₀.shapeCasts_S128_S1x128 i (Cert.ReferenceIdeal.Read.idx_main_v17 i) (by
    rewrite [Shape.rowMajor_val_one, Shape.rowMajor_val_two]
    have h0 : (i 0).val < 1 := (i 0).isLt
    show (i 1).val = (i 0).val * 128 + (i 1).val
    omega)

/-- The transposed weights are one term in both programs. -/
theorem weights_eq (x2 : FVec Ideal S128x128 .f32) :
    transpose S128x128 [1, 0] x2 Facts₀.transposes_S128x128_S128x128_1_0
      = Cert.ReferenceIdeal.Read.val_main_v15 (F := Ideal) x2 := rfl

variable (m : (ℓ : Loc nD τ sig) → Buf (Elt Ideal) ℓ)

/-- Under the precondition the kernel's result array is the reference's last stage of the same arguments. -/
theorem whole_eq_ref (c : Dev nD) (hpre : Cert.Pre_KernelIdeal m) :
    Cert.Hand.Blocks.wholeResult m c
      = Cert.ReferenceIdeal.Read.val_main_v19 (F := Ideal) (m ((c.tc : Thread nD τ).loc main_arg0))
          (m ((c.tc : Thread nD τ).loc main_arg1)) (m ((c.tc : Thread nD τ).loc main_arg2))
          (m ((c.tc : Thread nD τ).loc main_arg3)) := by
  unfold Cert.Hand.Blocks.wholeResult
  rw [Cert.Hand.RefAffine.result_eq, Cert.Hand.HostValues.features_eq, Cert.Hand.HostValues.weights_eq,
    Cert.Hand.HostValues.bias_eq]
  rw [Cert.Hand.Aggregate.features_agree _ _ (fun e => Cert.Hand.PreDecode.dst_nonneg _ _ _ _ (hpre c) e),
    bias_row_eq, weights_eq]

end Cert.Hand.Bridge

end
-- ==== Proof.lean ====
/-
  The certificate of the graph layer `h = x + Σ_{edges into a node} x[source]`, `out = h · Wᵀ + b`.
  The kernel's host code forms `h` by one scatter-add onto `x` itself and a tiled kernel computes `h · Wᵀ + b` ten row
  blocks at a time, rounding both factors to bf16 on the way into the matrix unit; the reference forms the sum of
  gathered rows on a zero array, adds `x`, and applies one whole matrix product and a broadcast bias. On the extended reals
  the rounding is the identity, a tiled product is the whole product row by row, and `x + Σ` is `x + (0 + Σ)`. The one
  place the two programs part is a negative destination index, which the kernel's scatter wraps by the node count and
  the reference's drops; the precondition says every destination is nonnegative, and then both scatter at the same
  indices. The three frames are the generated ones (the reference's is its run with the result forgotten), the kernel
  is its own idealization (nothing was rewritten), and the algebraic claim joins the kernel's run, read block by block,
  to the reference's run, read stage by stage.
-/
import proofs.«128946_j45792941310039_2_alg».proof.Defs
import proofs.«128946_j45792941310039_2_alg».proof.Proof.Gen.Kernel
import proofs.«128946_j45792941310039_2_alg».proof.Proof.Gen.Kernel.Skeleton
import proofs.«128946_j45792941310039_2_alg».proof.Proof.Gen.Kernel.Launch
import proofs.«128946_j45792941310039_2_alg».proof.Proof.Gen.Kernel.Points
import proofs.«128946_j45792941310039_2_alg».proof.Proof.Gen.Kernel.Frame
import proofs.«128946_j45792941310039_2_alg».proof.Proof.Gen.KernelIdeal
import proofs.«128946_j45792941310039_2_alg».proof.Proof.Gen.KernelIdeal.Skeleton
import proofs.«128946_j45792941310039_2_alg».proof.Proof.Gen.KernelIdeal.Launch
import proofs.«128946_j45792941310039_2_alg».proof.Proof.Gen.KernelIdeal.Points
import proofs.«128946_j45792941310039_2_alg».proof.Proof.Gen.KernelIdeal.Frame
import proofs.«128946_j45792941310039_2_alg».proof.Proof.Gen.ReferenceIdeal
import proofs.«128946_j45792941310039_2_alg».proof.Proof.Gen.Pre_finite_inputs
import proofs.«128946_j45792941310039_2_alg».proof.Proof.Gen.KernelIdeal.Value
import proofs.«128946_j45792941310039_2_alg».proof.Proof.Gen.ReferenceIdeal.Run
import proofs.«128946_j45792941310039_2_alg».proof.Proof.Gen.ReferenceIdeal.Read
import proofs.«128946_j45792941310039_2_alg».proof.Proof.Bridge
import Idealize.ShloMosaic.Adequacy
import Idealize.ShloMosaic.Init

noncomputable section

namespace Cert.Proof

open Idealize.ShloMosaic Idealize.SL.Sem Cert.Kernel

/-- The reference is a host program: its frame is its generated run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments, the kernel's result array ends at the dense layer of the arrays its
    host code staged, the reference's at its last stage of the same arguments, and under the precondition these are one
    array. -/
theorem algebraic : Cert.algebraic_KernelIdeal_ReferenceIdeal := by
  intro m ρ m' ρ' hpre hagree
  refine ⟨fun c => Cert.Hand.Blocks.wholeResult m c, Cert.Hand.Blocks.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2, Cert.ReferenceIdeal.Read.val_main_v19_eq]
  exact (Cert.Hand.Bridge.whole_eq_ref m c hpre).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_reference,
  trivial,
  algebraic⟩

end Cert.Proof

end
